-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1 : Shape := ⟨2, ![8192, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_

variable [Facts]

def fn {F : FTy → Type} [FloatOps F] (main_arg0 : FVec F S8192x256 .f32) (main_arg1 : FVec F S8192x256 .f32) (main_arg2 : FVec F S8192x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  main_v13
-- ==== Kernel.lean ====
abbrev S8192x256 : Shape := ⟨2, ![8192, 256]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S2048x256 : Shape := ⟨2, ![2048, 256]⟩
abbrev S1024x256 : Shape := ⟨2, ![1024, 256]⟩
abbrev S1x1024 : Shape := ⟨2, ![1, 1024]⟩
abbrev S2048x1 : Shape := ⟨2, ![2048, 1]⟩
abbrev S2048x128 : Shape := ⟨2, ![2048, 128]⟩
abbrev S2048 : Shape := ⟨1, ![2048]⟩
abbrev S2048x1024 : Shape := ⟨2, ![2048, 1024]⟩
abbrev S2048x8x128 : Shape := ⟨3, ![2048, 8, 128]⟩

abbrev nBuf : Space → Nat
  | .hbm => 10
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S1x8192, .f32⟩
  | .hbm, ⟨9, _⟩ => ⟨S8192x1, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_19 : BitVec 32 := 0#32
  let v47 : BitVec 1 := Scalar.cmpi .ne v46 c0_i32_19
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  reduces_S2048x256_S2048 : S2048x256.Reduces [1] S2048
  shapeCasts_S2048_S2048x1 : S2048.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  broadcasts_S2048x1_S2048x1024 : S2048x1.Broadcasts S2048x1024
  broadcasts_S1x1024_S2048x1024 : S1x1024.Broadcasts S2048x1024
  shapeCasts_S2048x1024_S2048x8x128 : S2048x1024.ShapeCasts S2048x8x128
  reduces_S2048x8x128_S2048x128 : S2048x8x128.Reduces [1] S2048x128
  reduces_S2048x128_S2048 : S2048x128.Reduces [1] S2048
  inb_S2048x1_S2048x1_0_0 : ∀ a, (![0, 0] : Fin 2 → Nat) a + S2048x1.size a ≤ S2048x1.size a
  h_S2048x1 : 0 < S2048x1.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []
  dot_S8192x8192_S8192x1_S8192x1_1_0_0_1_n_n_wf : DotDims.WF S8192x8192 S8192x1 S8192x1 [1] [0] [0] [1] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.Cases.lean ====
/-
  What one grid point leaves behind, case by case.

  The body keeps a `2048 × 128` accumulator across the 8 points of a row of blocks.  At the first point of the row
  it is reset to zero before the point's contribution is added; at the other points the contribution is added to
  what the point before left; at the last point the output block is, in addition, the lane sum of the accumulator
  just updated.  Each statement below reads the stores the body's run found as one value: a store through the
  whole buffer leaves its payload, and a load through the whole buffer reads what the buffer holds.
-/
import proofs.«144435_j51213190037873_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- FIRST POINT OF A ROW OF BLOCKS: the accumulator is the contribution added to the zero block. -/
theorem first_acc (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S2048x128 .f32) (harg7 : arg7.IsWhole) (hc0 : cond0_0 i) (hc1 : ¬cond0_1 i)
    (x0 : Vec F S2048x256 .f32) (x1 : Vec F S1024x256 .f32) (x2 : Vec F S1x1024 .f32) (x3 : Vec F S1x1024 .f32) :
    sout0_A_0 c i arg2 harg2 arg3 harg3 arg4 harg4 arg5 harg5 arg6 harg6 arg7 harg7 hc0 hc1 x0 x1 x2 x3 = k0_pay1 (k0_pay4 x0 x1 x2 x3) (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x128) hz, View.readCov_unit_zero (S := S2048x128) _ hz]
  simp only [View.readAt_eq_ld, harg2.read_unread, harg3.read_unread, harg4.read_unread, harg5.read_unread, harg7.read_unread,
    View.ld_unit_zero (S := S2048x256) hz, View.ld_unit_zero (S := S1024x256) hz, View.ld_unit_zero (S := S1x1024) hz,
    View.ld_unit_zero (S := S2048x128) hz]

/-- A MIDDLE POINT: the accumulator is the contribution added to what the point before left. -/
theorem middle_acc (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : ¬cond0_1 i)
    (x0 : Vec F S2048x256 .f32) (x1 : Vec F S1024x256 .f32) (x2 : Vec F S1x1024 .f32) (x3 : Vec F S1x1024 .f32) (xs0 : Vec F S2048x128 .f32) :
    sout0_B_0 c i arg2 harg2 arg3 harg3 arg4 harg4 arg5 harg5 arg6 harg6 arg7 harg7 hc0 hc1 x0 x1 x2 x3 xs0 = k0_pay1 (k0_pay4 x0 x1 x2 x3) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  (try sl_unfold_words)
  rw [View.canon_unit_zero (S := S2048x128) hz]
  simp only [View.readAt_eq_ld, harg2.read_unread, harg3.read_unread, harg4.read_unread, harg5.read_unread, harg7.read_unread,
    View.ld_unit_zero (S := S2048x256) hz, View.ld_unit_zero (S := S1024x256) hz, View.ld_unit_zero (S := S1x1024) hz,
    View.ld_unit_zero (S := S2048x128) hz]

/-- THE LAST POINT: the accumulator likewise, -/
theorem last_acc (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i)
    (x0 : Vec F S2048x256 .f32) (x1 : Vec F S1024x256 .f32) (x2 : Vec F S1x1024 .f32) (x3 : Vec F S1x1024 .f32) (xs0 : Vec F S2048x128 .f32) :
    sout0_C_0 c i arg2 harg2 arg3 harg3 arg4 harg4 arg5 harg5 arg6 harg6 arg7 harg7 hc0 hc1 x0 x1 x2 x3 xs0 = k0_pay1 (k0_pay4 x0 x1 x2 x3) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  (try sl_unfold_words)
  rw [View.canon_unit_zero (S := S2048x128) hz]
  simp only [View.readAt_eq_ld, harg2.read_unread, harg3.read_unread, harg4.read_unread, harg5.read_unread, harg7.read_unread,
    View.ld_unit_zero (S := S2048x256) hz, View.ld_unit_zero (S := S1024x256) hz, View.ld_unit_zero (S := S1x1024) hz,
    View.ld_unit_zero (S := S2048x128) hz]

/-- and the output block is the lane sum of that accumulator. -/
theorem last_out (c : Dev nD) (i : grid0.Coords) (arg2 : Memref sig .tc .vmem S2048x256 .f32) (harg2 : arg2.IsWhole) (arg3 : Memref sig .tc .vmem S1024x256 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2048x1 .f32) (harg6 : arg6.IsWhole) (arg7 : Memref sig .tc .vmem S2048x128 .f32) (harg7 : arg7.IsWhole) (hc0 : ¬cond0_0 i) (hc1 : cond0_1 i)
    (x0 : Vec F S2048x256 .f32) (x1 : Vec F S1024x256 .f32) (x2 : Vec F S1x1024 .f32) (x3 : Vec F S1x1024 .f32) (xs0 : Vec F S2048x128 .f32) :
    out0_C_4 c i arg2 harg2 arg3 harg3 arg4 harg4 arg5 harg5 arg6 harg6 arg7 harg7 hc0 hc1 x0 x1 x2 x3 xs0 = k0_pay2 (k0_pay1 (k0_pay4 x0 x1 x2 x3) xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  (try sl_unfold_words)
  rw [View.canon_unit_zero (S := S2048x1) hz, View.readCov_unit_zero (S := S2048x128) _ hz]
  simp only [View.readAt_eq_ld, harg2.read_unread, harg3.read_unread, harg4.read_unread, harg5.read_unread, harg7.read_unread,
    View.ld_unit_zero (S := S2048x256) hz, View.ld_unit_zero (S := S1024x256) hz, View.ld_unit_zero (S := S1x1024) hz,
    View.ld_unit_zero (S := S2048x128) hz]

end Cert.KernelIdeal.Cases

end
-- ==== Proof.Spec.lean ====
/-
  The function both programs compute, over the extended reals.

  For query rows `X0`, training rows `X1` (256 columns each) and one weight per training row `X2`, entry `r` of
  the result is the weighted sum over the training rows `n` of the Gaussian weight of the pair:

      out r = ∑ n, exp (c · max ((‖X0 r‖² + ‖X1 n‖²) − 2 · ⟨X0 r, X1 n⟩) 0) · X2 n,

  with `‖x‖² = 0 + ∑ k, x k · x k` and `⟨x, y⟩ = ∑ k, x k · y k`.  The three float literals (zero, two and the
  negative bandwidth `c = −1/256`) are kept as the words both programs print; only the zero word is ever evaluated.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The word of `0.0`, of `2.0` and of `−1/256`, as extended reals. -/
abbrev zeroW : EReal := Ideal.ofBits .f32 0x00000000#32
abbrev twoW : EReal := Ideal.ofBits .f32 0x40000000#32
abbrev bandW : EReal := Ideal.ofBits .f32 0xBB800000#32

theorem zeroW_eq : zeroW = 0 := Ideal.ofBits_zero_f32

/-- An extended real that is neither infinity. -/
def Finite (x : EReal) : Prop := x ≠ ⊤ ∧ x ≠ ⊥

theorem finite_zero : Finite (0 : EReal) := ⟨EReal.zero_ne_top, EReal.zero_ne_bot⟩

/-- On a finite entry the difference of the entry with itself is zero. -/
theorem sub_self_of_finite {x : EReal} (h : Finite x) : x - x = 0 := EReal.sub_self h.1 h.2

/-- The squared norm of row `r`, accumulated from the zero word. -/
def sqnorm {a : ℕ} (X : (⟨2, ![a, 256]⟩ : Shape).Idx → EReal) (r : Fin a) : EReal :=
  zeroW + ∑ k : Fin 256, X (ix2 r k) * X (ix2 r k)

/-- The zero word adds nothing. -/
theorem sqnorm_eq {a : ℕ} (X : (⟨2, ![a, 256]⟩ : Shape).Idx → EReal) (r : Fin a) :
    sqnorm X r = ∑ k : Fin 256, X (ix2 r k) * X (ix2 r k) := by
  unfold sqnorm; rw [zeroW_eq, zero_add]

/-- The inner product of row `r` of `X` and row `n` of `Y`. -/
def inner {a b : ℕ} (X : (⟨2, ![a, 256]⟩ : Shape).Idx → EReal) (Y : (⟨2, ![b, 256]⟩ : Shape).Idx → EReal)
    (r : Fin a) (n : Fin b) : EReal :=
  ∑ k : Fin 256, X (ix2 r k) * Y (ix2 n k)

/-- The Gaussian weight of a pair of rows, from their squared norms and their inner product: the squared
    distance, clamped at zero, scaled by the negative bandwidth, exponentiated. -/
def weight (sa sb d : EReal) : EReal :=
  Ideal.exp (bandW * max ((sa + sb) - twoW * d) zeroW)

/-- The term of training row `n` in the result's entry for query row `r`. -/
def term (X0 X1 : (⟨2, ![8192, 256]⟩ : Shape).Idx → EReal) (X2 : (⟨2, ![8192, 1]⟩ : Shape).Idx → EReal)
    (r : Fin 8192) (n : Fin 8192) : EReal :=
  weight (sqnorm X0 r) (sqnorm X1 n) (inner X0 X1 r n) * X2 (ix2 n (0 : Fin 1))

/-- The result: one weighted sum per query row. -/
def result (X0 X1 : (⟨2, ![8192, 256]⟩ : Shape).Idx → EReal) (X2 : (⟨2, ![8192, 1]⟩ : Shape).Idx → EReal) :
    (⟨2, ![8192, 1]⟩ : Shape).Idx → EReal :=
  fun i => ∑ n : Fin 8192, term X0 X1 X2 (i 0) n

end Cert.Rbf

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.Payload.lean ====
/-
  The kernel body's arithmetic, read entry by entry over the extended reals.

  One grid point holds a block of 2048 query rows `x0`, a block of 1024 training rows `x1`, the training rows'
  squared norms `x2` and their weights `x3` (each a `1 × 1024` row).  The body forms, for query row `p` and
  training row `q` of the blocks, the weighted Gaussian weight of the pair; re-laid as `2048 × 8 × 128` the entry
  `(p, g, l)` is the pair `(p, 128 g + l)`.  The inner product is taken in three passes, on `x0 · x1`,
  `x0 · (x1 − x1)` and `(x0 − x0) · x1`: on finite entries the two differences are zero and so are their passes.
  The accumulator then adds, lane by lane, the sum over the 8 groups; the last step of a row of blocks sums the 128
  lanes.
-/
import proofs.«144435_j51213190037873_2_alg».proof.Proof.Gen.KernelIdeal.Skeleton
import proofs.«144435_j51213190037873_2_alg».proof.Proof.Spec
import proofs.«144435_j51213190037873_2_alg».proof.Proof.LibDotRows
import proofs.«144435_j51213190037873_2_alg».proof.Proof.LibColumns
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Rbf

theorem exp_apply {s : Shape} (v : FVec Ideal s .f32) (i : s.Idx) : exp v i = Ideal.exp (v i) := rfl

/-- A lane sum along the 256 columns of a `2048 × 256` array, at row `p`. -/
theorem rowsum256 (v : FVec Ideal S2048x256 .f32) (p : Fin 2048) :
    multiReduction .add [1] S2048 v 0x00000000#32 reduces_S2048x256_S2048 (.inl rfl) rfl (ix1 p)
      = ∑ k : Fin 256, v (ix2 p k) :=
  (Ideal.multiReduction_add_single v 0x00000000#32 reduces_S2048x256_S2048 (.inl rfl) rfl (ix1 p)).trans
    (Finset.sum_congr rfl fun k _ => congrArg v (funext fun a => Fin.ext (by
      match a with
      | ⟨0, _⟩ => rfl
      | ⟨1, _⟩ => rfl)))

/-- A lane sum along the 128 lanes of a `2048 × 128` array, at row `p`. -/
theorem rowsum128 (v : FVec Ideal S2048x128 .f32) (p : Fin 2048) :
    multiReduction .add [1] S2048 v 0x00000000#32 reduces_S2048x128_S2048 (.inl rfl) rfl (ix1 p)
      = ∑ l : Fin 128, v (ix2 p l) :=
  (Ideal.multiReduction_add_single v 0x00000000#32 reduces_S2048x128_S2048 (.inl rfl) rfl (ix1 p)).trans
    (Finset.sum_congr rfl fun k _ => congrArg v (funext fun a => Fin.ext (by
      match a with
      | ⟨0, _⟩ => rfl
      | ⟨1, _⟩ => rfl)))

/-- A sum along the middle axis of a `2048 × 8 × 128` array, at `(p, l)`. -/
theorem groupsum (v : FVec Ideal S2048x8x128 .f32) (p : Fin 2048) (l : Fin 128) :
    multiReduction .add [1] S2048x128 v 0x00000000#32 reduces_S2048x8x128_S2048x128 (.inl rfl) rfl (ix2 p l)
      = ∑ g : Fin 8, v (ix3 p g l) :=
  (Ideal.multiReduction_add_single v 0x00000000#32 reduces_S2048x8x128_S2048x128 (.inl rfl) rfl (ix2 p l)).trans
    (Finset.sum_congr rfl fun k _ => congrArg v (funext fun a => Fin.ext (by
      match a with
      | ⟨0, _⟩ => rfl
      | ⟨1, _⟩ => rfl
      | ⟨2, _⟩ => rfl)))

theorem dims_eq : dot_S2048x256_S1024x256_S2048x1024_1_1_0_0_n_n = DotDims.transposedRhs 2048 256 1024 := rfl

/-- THE BLOCK'S WEIGHTED WEIGHTS. Entry `(p, g, l)` of the re-laid product is the pair of query row `p` and training
    row `q = 128 g + l` of the blocks: its Gaussian weight times the training row's weight.  Finiteness of the two
    row blocks is what makes the second and third pass of the inner product vanish. -/
theorem pay4_apply (x0 : FVec Ideal S2048x256 .f32) (x1 : FVec Ideal S1024x256 .f32) (x2 x3 : FVec Ideal S1x1024 .f32)
    (h0 : ∀ y, Finite (x0 y)) (h1 : ∀ y, Finite (x1 y))
    (p : Fin 2048) (g : Fin 8) (l : Fin 128) (q : Fin 1024) (hq : q.val = 128 * g.val + l.val) :
    k0_pay4 (F := Ideal) x0 x1 x2 x3 (ix3 p g l)
      = weight (sqnorm x0 p) (x2 (ix2 (0 : Fin 1) q)) (inner x0 x1 p q) * x3 (ix2 (0 : Fin 1) q) := by
  unfold k0_pay4
  (try dsimp only)
  refine (shapeCast_apply _ shapeCasts_S2048x1024_S2048x8x128 (ix3 p g l) (ix2 p q) ?_).trans ?_
  · rw [Shape.rowMajor_val_two, Shape.rowMajor_val_three]
    show p.val * 1024 + q.val = (p.val * 8 + g.val) * 128 + l.val
    omega
  have m1 : matmul dot_S2048x256_S1024x256_S2048x1024_1_1_0_0_n_n none (truncf .bf16 x0 bitsLt_bf16_f32)
      (truncf .bf16 x1 bitsLt_bf16_f32) (constant S2048x1024 .f32 0x00000000#32) (ix2 p q) = inner x0 x1 p q :=
    Cert.Lib.DotRows.matmul_rows_apply _ dims_eq none (truncf .bf16 x0 bitsLt_bf16_f32) (truncf .bf16 x1 bitsLt_bf16_f32) p q
  have m2 : matmul dot_S2048x256_S1024x256_S2048x1024_1_1_0_0_n_n none (truncf .bf16 x0 bitsLt_bf16_f32)
      (truncf .bf16 (subf x1 x1) bitsLt_bf16_f32) (constant S2048x1024 .f32 0x00000000#32) (ix2 p q) = 0 :=
    (Cert.Lib.DotRows.matmul_rows_apply _ dims_eq none (truncf .bf16 x0 bitsLt_bf16_f32) (truncf .bf16 (subf x1 x1) bitsLt_bf16_f32) p q).trans (Finset.sum_eq_zero fun k _ => by
      show x0 (ix2 p k) * (x1 (ix2 q k) - x1 (ix2 q k)) = 0
      rw [sub_self_of_finite (h1 _), mul_zero])
  have m3 : matmul dot_S2048x256_S1024x256_S2048x1024_1_1_0_0_n_n none (truncf .bf16 (subf x0 x0) bitsLt_bf16_f32)
      (truncf .bf16 x1 bitsLt_bf16_f32) (constant S2048x1024 .f32 0x00000000#32) (ix2 p q) = 0 :=
    (Cert.Lib.DotRows.matmul_rows_apply _ dims_eq none (truncf .bf16 (subf x0 x0) bitsLt_bf16_f32) (truncf .bf16 x1 bitsLt_bf16_f32) p q).trans (Finset.sum_eq_zero fun k _ => by
      show (x0 (ix2 p k) - x0 (ix2 p k)) * x1 (ix2 q k) = 0
      rw [sub_self_of_finite (h0 _), zero_mul])
  have a1 : broadcastTo S2048x1024 (shapeCast S2048x1 (multiReduction .add [1] S2048 (mulf x0 x0) 0x00000000#32
      reduces_S2048x256_S2048 (.inl rfl) rfl) shapeCasts_S2048_S2048x1) broadcasts_S2048x1_S2048x1024 (ix2 p q)
      = sqnorm x0 p :=
    (broadcastTo_a1_ab_apply _ _ p q).trans ((shapeCast_a_a1_apply _ _ p 0).trans ((rowsum256 _ p).trans (sqnorm_eq x0 p).symm))
  have a2 : broadcastTo S2048x1024 (shapeCast S1x1024 x2 shapeCasts_S1x1024_S1x1024) broadcasts_S1x1024_S2048x1024 (ix2 p q)
      = x2 (ix2 (0 : Fin 1) q) :=
    (broadcastTo_1b_ab_apply _ _ p q).trans (congrFun (shapeCast_self x2 _) _)
  have a3 : broadcastTo S2048x1024 (shapeCast S1x1024 x3 shapeCasts_S1x1024_S1x1024) broadcasts_S1x1024_S2048x1024 (ix2 p q)
      = x3 (ix2 (0 : Fin 1) q) :=
    (broadcastTo_1b_ab_apply _ _ p q).trans (congrFun (shapeCast_self x3 _) _)
  simp only [mulf_apply, addf_apply, subf_apply, maximumf_apply, broadcast_apply, exp_apply]
  rw [m1, m2, m3, a1, a2, a3, add_zero, add_zero]
  rfl

/-- THE ACCUMULATOR'S STEP. Lane `(p, l)` of the accumulator grows by the sum over the 8 groups. -/
theorem pay1_apply (v : FVec Ideal S2048x8x128 .f32) (acc : FVec Ideal S2048x128 .f32) (p : Fin 2048) (l : Fin 128) :
    k0_pay1 (F := Ideal) v acc (ix2 p l) = acc (ix2 p l) + ∑ g : Fin 8, v (ix3 p g l) := by
  unfold k0_pay1
  (try dsimp only)
  rw [shapeCast_self]
  show acc (ix2 p l) + multiReduction .add [1] S2048x128 v 0x00000000#32 reduces_S2048x8x128_S2048x128 (.inl rfl) rfl (ix2 p l) = _
  rw [groupsum]

/-- THE RESET. The accumulator starts from the zero word. -/
theorem pay3_apply (i : S2048x128.Idx) : k0_pay3 (F := Ideal) i = 0 := by
  unfold k0_pay3
  (try dsimp only)
  rw [shapeCast_self]
  exact zeroW_eq

/-- THE LAST STEP. Row `p` of the output block is the sum of the accumulator's 128 lanes. -/
theorem pay2_apply (acc : FVec Ideal S2048x128 .f32) (p : Fin 2048) (u : Fin 1) :
    k0_pay2 (F := Ideal) acc (ix2 p u) = ∑ l : Fin 128, acc (ix2 p l) := by
  unfold k0_pay2
  (try dsimp only)
  exact (shapeCast_a_a1_apply _ _ p u).trans (rowsum128 _ p)

end Cert.KernelIdeal.Payload

end
-- ==== Proof.LibBlockSum.lean ====
/-
  General facts for setting a sum that is computed block by block beside the same sum computed in one pass.

  * `sum_range_blocks`: in any additive commutative monoid, the sum of `f` over the first `d · n` naturals is the sum,
    over the `n` consecutive blocks of length `d`, of each block's own sum. Only associativity and commutativity of
    the addition are used, so it holds on the extended reals, infinities included.
  * `at1`, `at2`: an array of rank one or two read at NATURAL coordinates — its entry when the coordinates are inside
    the extents, zero outside. With them a sum over positions of an array is a sum over naturals, and block offsets
    are plain arithmetic. `at1_eq` / `at2_eq`: at the coordinates of an index, they are the entry at that index.
-/
import Mathlib.Algebra.BigOperators.Intervals
import Mathlib.Algebra.BigOperators.Fin
import Idealize.ShloMosaic.Lib.ValueIdx

namespace Cert.LibBlockSum

open Finset Idealize.ShloMosaic Idealize.ShloMosaic.ValueIdx

/-- A sum over the first `d · n` naturals, regrouped into `n` consecutive blocks of `d` terms: position `d · s + k`
    is term `k` of block `s`. By induction on the number of blocks: the last block is split off the end of the range. -/
theorem sum_range_blocks {M : Type*} [AddCommMonoid M] (f : ℕ → M) (d : ℕ) :
    ∀ n : ℕ, ∑ i ∈ range (d * n), f i = ∑ s ∈ range n, ∑ k ∈ range d, f (d * s + k)
  | 0 => by simp
  | n + 1 => by
    rw [Nat.mul_succ, sum_range_add, sum_range_blocks f d n, sum_range_succ]

/-- A rank-1 array read at a natural coordinate: the entry there, or zero past the extent. -/
def at1 {M : Type*} [Zero M] {n : ℕ} (B : (⟨1, ![n]⟩ : Shape).Idx → M) (a : ℕ) : M :=
  if h : a < n then B (ix1 ⟨a, h⟩) else 0

/-- At the coordinate of an index, `at1` is the entry at that index. -/
theorem at1_eq {M : Type*} [Zero M] {n : ℕ} (B : (⟨1, ![n]⟩ : Shape).Idx → M) (i : (⟨1, ![n]⟩ : Shape).Idx) (a : ℕ)
    (ha : (i 0).val = a) : at1 B a = B i := by
  subst ha
  unfold at1
  rw [dif_pos (show (i 0).val < n from (i 0).isLt)]
  exact congrArg B (eq_ix1 i).symm

/-- A rank-2 array read at natural coordinates: the entry there, or zero outside the extents. -/
def at2 {M : Type*} [Zero M] {n0 n1 : ℕ} (A : (⟨2, ![n0, n1]⟩ : Shape).Idx → M) (a b : ℕ) : M :=
  if h : a < n0 ∧ b < n1 then A (ix2 ⟨a, h.1⟩ ⟨b, h.2⟩) else 0

/-- At the coordinates of an index, `at2` is the entry at that index. -/
theorem at2_eq {M : Type*} [Zero M] {n0 n1 : ℕ} (A : (⟨2, ![n0, n1]⟩ : Shape).Idx → M)
    (i : (⟨2, ![n0, n1]⟩ : Shape).Idx) (a b : ℕ) (ha : (i 0).val = a) (hb : (i 1).val = b) : at2 A a b = A i := by
  subst ha; subst hb
  unfold at2
  rw [dif_pos ⟨idx2_lt0 i, idx2_lt1 i⟩]
  exact congrArg A (eq_ix2 i).symm

end Cert.LibBlockSum
-- ==== Proof.Sums.lean ====
/-
  Finite sums in a commutative additive monoid, regrouped.

  A position `n` below 8192 is written `1024 * s + (128 * g + l)` with `s, g` below 8 and `l` below 128 in
  exactly one way.  So a sum over the 8192 positions is the sum, over the 128 residues `l`, of the sums over the
  8 slabs `s` of the sums over the 8 groups `g`: only associativity and commutativity of the addition are used,
  so the statement holds on the extended reals, infinities included.
-/
import Mathlib.Algebra.BigOperators.Intervals
import Mathlib.Algebra.BigOperators.Fin
import proofs.«144435_j51213190037873_2_alg».proof.Proof.LibBlockSum

namespace Cert.Sums

open Finset

/-- The sum over residues, then slabs, then groups is the sum over all 8192 positions. -/
theorem sum_lanes_slabs_groups {M : Type*} [AddCommMonoid M] (f : ℕ → M) :
    ∑ l ∈ range 128, ∑ s ∈ range 8, ∑ g ∈ range 8, f (1024 * s + (128 * g + l)) = ∑ n ∈ range 8192, f n := by
  have h1 : ∑ n ∈ range 8192, f n = ∑ s ∈ range 8, ∑ y ∈ range 1024, f (1024 * s + y) :=
    Cert.LibBlockSum.sum_range_blocks f 1024 8
  have h2 : ∀ s : ℕ, ∑ y ∈ range 1024, f (1024 * s + y) = ∑ g ∈ range 8, ∑ l ∈ range 128, f (1024 * s + (128 * g + l)) :=
    fun s => Cert.LibBlockSum.sum_range_blocks (fun y => f (1024 * s + y)) 128 8
  rw [h1, sum_comm]
  refine sum_congr rfl fun s _ => ?_
  rw [h2 s, sum_comm]

/-- The same with the total written over `Fin 8192`. -/
theorem sum_lanes_slabs_groups_fin {M : Type*} [AddCommMonoid M] (f : ℕ → M) :
    ∑ l ∈ range 128, ∑ s ∈ range 8, ∑ g ∈ range 8, f (1024 * s + (128 * g + l)) = ∑ n : Fin 8192, f n.val := by
  rw [sum_lanes_slabs_groups, Finset.sum_range]

end Cert.Sums
-- ==== Proof.BlockTerm.lean ====
/-
  One block pair's entry is one term of the specified sum.

  The grid cuts the 8192 query rows into 4 blocks of 2048 and the 8192 training rows into 8 blocks of 1024.  A block
  is written here as a function of the whole array and a row offset, read at natural coordinates (zero outside the
  array, which never happens for the offsets the grid uses).  For the query block at offset `ro` and the training
  block at offset `no`, the weighted Gaussian weight of block rows `(p, q)` is the specified term of rows
  `(ro + p, no + q)` of the arrays.
-/
import proofs.«144435_j51213190037873_2_alg».proof.Proof.Spec
import proofs.«144435_j51213190037873_2_alg».proof.Proof.LibBlockSum
import proofs.«144435_j51213190037873_2_alg».proof.Proof.Sums

noncomputable section

namespace Cert.Rbf

open Idealize.ShloMosaic Idealize.ShloMosaic.ValueIdx Cert.LibBlockSum

/-- The specified term at natural row numbers: zero past the arrays. -/
def termN (X0 X1 : (⟨2, ![8192, 256]⟩ : Shape).Idx → EReal) (X2 : (⟨2, ![8192, 1]⟩ : Shape).Idx → EReal) (r n : ℕ) : EReal :=
  if h : r < 8192 ∧ n < 8192 then term X0 X1 X2 ⟨r, h.1⟩ ⟨n, h.2⟩ else 0

/-- The squared norm of a training row at a natural row number. -/
def sqnormN (X : (⟨2, ![8192, 256]⟩ : Shape).Idx → EReal) (n : ℕ) : EReal :=
  if h : n < 8192 then sqnorm X ⟨n, h⟩ else 0

/-- `a` rows of a 256-column array from row offset `o`. -/
def rowsFrom (a : ℕ) (X : (⟨2, ![8192, 256]⟩ : Shape).Idx → EReal) (o : ℕ) : (⟨2, ![a, 256]⟩ : Shape).Idx → EReal :=
  fun y => at2 X (o + (y 0).val) (y 1).val

/-- The squared norms of 1024 training rows from offset `o`, as one row. -/
def normsFrom (X : (⟨2, ![8192, 256]⟩ : Shape).Idx → EReal) (o : ℕ) : (⟨2, ![1, 1024]⟩ : Shape).Idx → EReal :=
  fun y => sqnormN X (o + (y 1).val)

/-- The weights of 1024 training rows from offset `o`, as one row. -/
def weightsFrom (X2 : (⟨2, ![8192, 1]⟩ : Shape).Idx → EReal) (o : ℕ) : (⟨2, ![1, 1024]⟩ : Shape).Idx → EReal :=
  fun y => at2 X2 (o + (y 1).val) 0

theorem rowsFrom_apply {a : ℕ} (X : (⟨2, ![8192, 256]⟩ : Shape).Idx → EReal) (o : ℕ) (p : Fin a) (k : Fin 256)
    (h : o + p.val < 8192) : rowsFrom a X o (ix2 p k) = X (ix2 ⟨o + p.val, h⟩ k) := by
  show at2 X (o + p.val) k.val = _
  unfold at2
  rw [dif_pos ⟨h, k.isLt⟩]

/-- A block of a finite array is finite. -/
theorem rowsFrom_finite {a : ℕ} (X : (⟨2, ![8192, 256]⟩ : Shape).Idx → EReal) (hX : ∀ z, Finite (X z)) (o : ℕ)
    (y : (⟨2, ![a, 256]⟩ : Shape).Idx) : Finite (rowsFrom a X o y) := by
  unfold rowsFrom at2
  split
  · exact hX _
  · exact finite_zero

/-- THE BLOCK PAIR'S ENTRY: for blocks inside the arrays, block rows `(p, q)` give the term of rows
    `(ro + p, no + q)`. -/
theorem block_term (X0 X1 : (⟨2, ![8192, 256]⟩ : Shape).Idx → EReal) (X2 : (⟨2, ![8192, 1]⟩ : Shape).Idx → EReal)
    (ro no : ℕ) (hro : ro + 2048 ≤ 8192) (hno : no + 1024 ≤ 8192) (p : Fin 2048) (q : Fin 1024) :
    weight (sqnorm (rowsFrom 2048 X0 ro) p) (normsFrom X1 no (ix2 (0 : Fin 1) q))
        (inner (rowsFrom 2048 X0 ro) (rowsFrom 1024 X1 no) p q) * weightsFrom X2 no (ix2 (0 : Fin 1) q)
      = termN X0 X1 X2 (ro + p.val) (no + q.val) := by
  have hr : ro + p.val < 8192 := by have := p.isLt; omega
  have hn : no + q.val < 8192 := by have := q.isLt; omega
  unfold termN
  rw [dif_pos ⟨hr, hn⟩]
  unfold term
  have e1 : sqnorm (rowsFrom 2048 X0 ro) p = sqnorm X0 ⟨ro + p.val, hr⟩ := by
    unfold sqnorm
    exact congrArg (zeroW + ·) (Finset.sum_congr rfl fun k _ => by rw [rowsFrom_apply X0 ro p k hr])
  have e2 : normsFrom X1 no (ix2 (0 : Fin 1) q) = sqnorm X1 ⟨no + q.val, hn⟩ := by
    show sqnormN X1 (no + q.val) = _
    unfold sqnormN
    rw [dif_pos hn]
  have e3 : inner (rowsFrom 2048 X0 ro) (rowsFrom 1024 X1 no) p q = inner X0 X1 ⟨ro + p.val, hr⟩ ⟨no + q.val, hn⟩ := by
    unfold inner
    exact Finset.sum_congr rfl fun k _ => by rw [rowsFrom_apply X0 ro p k hr, rowsFrom_apply X1 no q k hn]
  have e4 : weightsFrom X2 no (ix2 (0 : Fin 1) q) = X2 (ix2 ⟨no + q.val, hn⟩ (0 : Fin 1)) := by
    show at2 X2 (no + q.val) 0 = _
    unfold at2
    rw [dif_pos ⟨hn, Nat.one_pos⟩]
    rfl
  rw [e1, e2, e3, e4]

/-- ONE RESULT ENTRY FROM THE BLOCK TERMS. For query row `r = 2048 k + p`: the sum over the 128 lanes of the sums
    over the 8 points `8 k + s` of block row `k` of the sums over the 8 groups of the block terms is the specified
    sum over all 8192 training rows — each training row `1024 s + 128 g + l` is met once. -/
theorem entry_total (X0 X1 : (⟨2, ![8192, 256]⟩ : Shape).Idx → EReal) (X2 : (⟨2, ![8192, 1]⟩ : Shape).Idx → EReal)
    (k : ℕ) (p : Fin 2048) (r : Fin 8192) (hr : r.val = 2048 * k + p.val) :
    ∑ l : Fin 128, ∑ s ∈ Finset.range 8, ∑ g : Fin 8,
        termN X0 X1 X2 (2048 * ((8 * k + s) / 8) + p.val) (1024 * ((8 * k + s) % 8) + (128 * g.val + l.val))
      = ∑ n : Fin 8192, term X0 X1 X2 r n := by
  have h1 : ∀ l : Fin 128, ∑ s ∈ Finset.range 8, ∑ g : Fin 8,
        termN X0 X1 X2 (2048 * ((8 * k + s) / 8) + p.val) (1024 * ((8 * k + s) % 8) + (128 * g.val + l.val))
      = ∑ s ∈ Finset.range 8, ∑ g ∈ Finset.range 8, termN X0 X1 X2 r.val (1024 * s + (128 * g + l.val)) := by
    intro l
    refine Finset.sum_congr rfl fun s hs => ?_
    have hs' : s < 8 := Finset.mem_range.mp hs
    have e1 : (8 * k + s) / 8 = k := by omega
    have e2 : (8 * k + s) % 8 = s := by omega
    rw [e1, e2, ← hr, Finset.sum_range (fun g => termN X0 X1 X2 r.val (1024 * s + (128 * g + l.val)))]
  rw [Finset.sum_congr rfl fun l _ => h1 l,
    ← Finset.sum_range (fun l => ∑ s ∈ Finset.range 8, ∑ g ∈ Finset.range 8, termN X0 X1 X2 r.val (1024 * s + (128 * g + l))),
    Cert.Sums.sum_lanes_slabs_groups_fin (fun n => termN X0 X1 X2 r.val n)]
  refine Finset.sum_congr rfl fun n _ => ?_
  show termN X0 X1 X2 r.val n.val = _
  unfold termN
  rw [dif_pos ⟨r.isLt, n.isLt⟩]

end Cert.Rbf

end
-- ==== Proof.Blocks.lean ====
/-
  The four input blocks of a grid point, as parts of the argument arrays.

  Point `t` of the `4 × 8` grid is block row `t / 8` of the queries and block `t % 8` of the training rows.  Its
  first window holds query rows `2048 (t / 8) …`, its second training rows `1024 (t % 8) …`; the third and fourth
  hold the same 1024 positions of two `1 × 8192` rows the host prepared before the launch: the training rows' squared
  norms (a row sum from the zero word, kept as a column and re-laid as a row) and the weights (the `8192 × 1` column
  re-laid as a row).  A block's coordinate in its array is always block index × block size + coordinate in the block.
-/
import proofs.«144435_j51213190037873_2_alg».proof.Proof.Gen.KernelIdeal.Frame
import proofs.«144435_j51213190037873_2_alg».proof.Proof.BlockTerm
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx Cert.Rbf Cert.LibBlockSum

variable (m : (ℓ : Loc nD τ sig) → Buf (Elt Ideal) ℓ) (c : Dev nD)

/-- The printed index maps, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- The row of squared norms the host prepares: the training rows' row sums, as a column, re-laid as a row. -/
theorem norms_row : (V m c main_v3 : S1x8192.Idx → EReal)
    = shapeCast S1x8192 (broadcastInDim S8192x1 ![0] bcast_S8192_S8192x1_0
        (Host.reduceAdd (F := Ideal) (mulf (m ((c : Thread nD τ).loc main_arg1)) (m ((c : Thread nD τ).loc main_arg1)))
          (constant (F := Ideal) S_ .f32 0x00000000#32) reducesTo_S8192x256_S8192_d1 h_S_)) shapeCasts_S8192x1_S1x8192 := by
  dsimp only [Gen.V, Gen.hostOps0]
  after_results
  rfl

/-- The row of weights the host prepares: the weights' column re-laid as a row. -/
theorem weights_row : (V m c main_v4 : S1x8192.Idx → EReal)
    = shapeCast S1x8192 (m ((c : Thread nD τ).loc main_arg2)) shapeCasts_S8192x1_S1x8192 := by
  dsimp only [Gen.V, Gen.hostOps0]
  after_results
  rfl

/-- A row sum from the zero word, kept as a column and re-laid as a row, read at position `n`. -/
theorem norms_of (X : S8192x256.Idx → EReal) (u : Fin 1) (n : Fin 8192) :
    shapeCast S1x8192 (broadcastInDim S8192x1 ![0] bcast_S8192_S8192x1_0
        (Host.reduceAdd (F := Ideal) (mulf X X) (constant (F := Ideal) S_ .f32 0x00000000#32) reducesTo_S8192x256_S8192_d1 h_S_))
      shapeCasts_S8192x1_S1x8192 (ix2 u n) = sqnorm X n := by
  refine (shapeCast_apply _ shapeCasts_S8192x1_S1x8192 (ix2 u n) (ix2 n (0 : Fin 1)) ?_).trans ?_
  · rw [Shape.rowMajor_val_two, Shape.rowMajor_val_two]
    show n.val * 1 + 0 = u.val * 8192 + n.val
    have := u.isLt; omega
  refine (broadcastInDim_apply _ bcast_S8192_S8192x1_0 _ (ix2 n (0 : Fin 1)) (ix1 n) (fun a => ?_)).trans ?_
  · match a with
    | ⟨0, _⟩ => show n.val = if (8192 : Nat) = 1 then 0 else n.val; rw [if_neg (by decide)]
  simp only [Host.reduceAdd, Ideal.hostReduceAdd_def]
  rw [Ideal.hostReduceAdd_single reducesTo_S8192x256_S8192_d1 (by decide)]
  unfold sqnorm
  refine congrArg (_ + ·) (Finset.sum_congr rfl fun k _ => ?_)
  exact congrArg (fun z => X z * X z) (funext fun a => Fin.ext (by match a with | ⟨0, _⟩ => rfl | ⟨1, _⟩ => rfl))

/-- Position `n` of the row of squared norms is the squared norm of training row `n`. -/
theorem norms_row_apply (u : Fin 1) (n : Fin 8192) :
    (V m c main_v3 : S1x8192.Idx → EReal) (ix2 u n) = sqnorm (m ((c : Thread nD τ).loc main_arg1)) n := by
  rw [norms_row]
  exact norms_of _ u n

/-- Position `n` of the row of weights is the weight of training row `n`. -/
theorem weights_row_apply (u : Fin 1) (n : Fin 8192) :
    (V m c main_v4 : S1x8192.Idx → EReal) (ix2 u n) = m ((c : Thread nD τ).loc main_arg2) (ix2 n (0 : Fin 1)) := by
  rw [weights_row]
  refine shapeCast_apply _ shapeCasts_S8192x1_S1x8192 (ix2 u n) (ix2 n (0 : Fin 1)) ?_
  rw [Shape.rowMajor_val_two, Shape.rowMajor_val_two]
  show n.val * 1 + 0 = u.val * 8192 + n.val
  have := u.isLt; omega

/-- THE FIRST WINDOW'S BLOCK: 2048 query rows. -/
theorem queries_block (t : Fin cfg0.N) :
    (iblk m c 0 t : FVec Ideal S2048x256 .f32)
      = rowsFrom 2048 (m ((c : Thread nD τ).loc main_arg0)) (2048 * (t.val / 8)) := by
  funext y
  obtain ⟨e0, e1, -⟩ := idx_facts t
  have hy0 : (y 0).val < 2048 := (y 0).isLt
  have hy1 : (y 1).val < 256 := (y 1).isLt
  unfold iblk
  rw [View.read_apply]
  show V m c main_arg0 (((cfg0.win 0).blk t).view.emb y) = _
  rw [V_main_arg0]
  refine (at2_eq (M := EReal) (n0 := 8192) (n1 := 256) (m ((c : Thread nD τ).loc main_arg0)) _ _ _ ?_ ?_).symm
  · show win0_0.index t (0 : Fin 2) * 2048 + 1 * (y 0).val = 2048 * (t.val / 8) + (y 0).val; omega
  · show win0_0.index t (1 : Fin 2) * 256 + 1 * (y 1).val = (y 1).val; omega

/-- THE SECOND WINDOW'S BLOCK: 1024 training rows. -/
theorem training_block (t : Fin cfg0.N) :
    (iblk m c 1 t : FVec Ideal S1024x256 .f32)
      = rowsFrom 1024 (m ((c : Thread nD τ).loc main_arg1)) (1024 * (t.val % 8)) := by
  funext y
  obtain ⟨-, -, e2, e3, -⟩ := idx_facts t
  have hy0 : (y 0).val < 1024 := (y 0).isLt
  have hy1 : (y 1).val < 256 := (y 1).isLt
  unfold iblk
  rw [View.read_apply]
  show V m c main_arg1 (((cfg0.win 1).blk t).view.emb y) = _
  rw [V_main_arg1]
  refine (at2_eq (M := EReal) (n0 := 8192) (n1 := 256) (m ((c : Thread nD τ).loc main_arg1)) _ _ _ ?_ ?_).symm
  · show win0_1.index t (0 : Fin 2) * 1024 + 1 * (y 0).val = 1024 * (t.val % 8) + (y 0).val; omega
  · show win0_1.index t (1 : Fin 2) * 256 + 1 * (y 1).val = (y 1).val; omega

/-- THE THIRD WINDOW'S BLOCK: the squared norms of those 1024 training rows. -/
theorem norms_block (t : Fin cfg0.N) :
    (iblk m c 2 t : FVec Ideal S1x1024 .f32) = normsFrom (m ((c : Thread nD τ).loc main_arg1)) (1024 * (t.val % 8)) := by
  funext y
  obtain ⟨-, -, -, -, e4, e5, -⟩ := idx_facts t
  have hN : t.val < 32 := lt_of_lt_of_eq t.isLt (show cfg0.N = 32 from N_0)
  have hy0 : (y 0).val < 1 := (y 0).isLt
  have hy1 : (y 1).val < 1024 := (y 1).isLt
  have hn : 1024 * (t.val % 8) + (y 1).val < 8192 := by omega
  unfold iblk
  rw [View.read_apply]
  show V m c main_v3 (((cfg0.win 2).blk t).view.emb y) = _
  have he : ((cfg0.win 2).blk t).view.emb y = ix2 (0 : Fin 1) (⟨1024 * (t.val % 8) + (y 1).val, hn⟩ : Fin 8192) := by
    funext a; apply Fin.ext
    match a with
    | ⟨0, _⟩ => show win0_2.index t (0 : Fin 2) * 1 + 1 * (y 0).val = 0; omega
    | ⟨1, _⟩ => show win0_2.index t (1 : Fin 2) * 1024 + 1 * (y 1).val = 1024 * (t.val % 8) + (y 1).val; omega
  rw [he, norms_row_apply]
  show _ = sqnormN _ (1024 * (t.val % 8) + (y 1).val)
  unfold sqnormN
  rw [dif_pos hn]

/-- THE FOURTH WINDOW'S BLOCK: the weights of those 1024 training rows. -/
theorem weights_block (t : Fin cfg0.N) :
    (iblk m c 3 t : FVec Ideal S1x1024 .f32) = weightsFrom (m ((c : Thread nD τ).loc main_arg2)) (1024 * (t.val % 8)) := by
  funext y
  obtain ⟨-, -, -, -, -, -, e6, e7, -⟩ := idx_facts t
  have hN : t.val < 32 := lt_of_lt_of_eq t.isLt (show cfg0.N = 32 from N_0)
  have hy0 : (y 0).val < 1 := (y 0).isLt
  have hy1 : (y 1).val < 1024 := (y 1).isLt
  have hn : 1024 * (t.val % 8) + (y 1).val < 8192 := by omega
  unfold iblk
  rw [View.read_apply]
  show V m c main_v4 (((cfg0.win 3).blk t).view.emb y) = _
  have he : ((cfg0.win 3).blk t).view.emb y = ix2 (0 : Fin 1) (⟨1024 * (t.val % 8) + (y 1).val, hn⟩ : Fin 8192) := by
    funext a; apply Fin.ext
    match a with
    | ⟨0, _⟩ => show win0_3.index t (0 : Fin 2) * 1 + 1 * (y 0).val = 0; omega
    | ⟨1, _⟩ => show win0_3.index t (1 : Fin 2) * 1024 + 1 * (y 1).val = 1024 * (t.val % 8) + (y 1).val; omega
  rw [he, weights_row_apply]
  show _ = at2 (M := EReal) (n0 := 8192) (n1 := 1) (m ((c : Thread nD τ).loc main_arg2)) (1024 * (t.val % 8) + (y 1).val) 0
  unfold at2
  rw [dif_pos ⟨hn, Nat.one_pos⟩]
  rfl

end Cert.KernelIdeal.Blocks

end
-- ==== Proof.KernelValue.lean ====
/-
  The kernel's result array after the run, over the extended reals.

  Along a block row `k` of the queries the grid visits the 8 training blocks in turn (points `8 k … 8 k + 7`).  Each
  point adds, to lane `(p, l)` of an accumulator that starts from zero at the first of them, the sum over the 8 groups
  `g` of the terms of query row `2048 k + p` and training row `1024 s + 128 g + l`; after the last point the output
  block's row `p` is the sum of the 128 lanes, and is written back.  So row `2048 k + p` of the result array is the
  sum of the terms of all 8192 training rows, each met once.  The four output blocks cover the array.

  The argument arrays are assumed finite where the body's split inner product needs it (the query and the training
  rows); the caller has that from the precondition.
-/
import proofs.«144435_j51213190037873_2_alg».proof.Proof.Gen.KernelIdeal.Value
import proofs.«144435_j51213190037873_2_alg».proof.Proof.Cases
import proofs.«144435_j51213190037873_2_alg».proof.Proof.Payload
import proofs.«144435_j51213190037873_2_alg».proof.Proof.Blocks
import proofs.«144435_j51213190037873_2_alg».proof.Proof.BlockTerm
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg) (c : Dev nD)

/-- What grid point `n` adds to lane `i` of the accumulator: the sum over the 8 groups of the block terms. -/
def addend (n : ℕ) (i : S2048x128.Idx) : EReal :=
  ∑ g : Fin 8, termN (m ((c : Thread nD τ).loc main_arg0)) (m ((c : Thread nD τ).loc main_arg1)) (m ((c : Thread nD τ).loc main_arg2))
    (2048 * (n / 8) + (i 0).val) (1024 * (n % 8) + (128 * g.val + (i 1).val))

/-- ONE POINT'S STEP on finite rows: the accumulator grows by the point's addend. -/
theorem step (hf0 : ∀ z, Finite ((m ((c : Thread nD τ).loc main_arg0)) z)) (hf1 : ∀ z, Finite ((m ((c : Thread nD τ).loc main_arg1)) z))
    (t : Fin cfg0.N) (acc : FVec Ideal S2048x128 .f32) (i : S2048x128.Idx) :
    k0_pay1 (F := Ideal) (k0_pay4 (iblk m c 0 t) (iblk m c 1 t) (iblk m c 2 t) (iblk m c 3 t)) acc i
      = acc i + addend m c t.val i := by
  have hN : t.val < 32 := lt_of_lt_of_eq t.isLt (show cfg0.N = 32 from N_0)
  obtain ⟨p, l, rfl⟩ : ∃ (p : Fin 2048) (l : Fin 128), i = ix2 p l := ⟨i 0, i 1, eq_ix2 i⟩
  rw [Blocks.queries_block, Blocks.training_block, Blocks.norms_block, Blocks.weights_block, Payload.pay1_apply]
  refine congrArg (acc (ix2 p l) + ·) (Finset.sum_congr rfl fun g _ => ?_)
  have hq : 128 * g.val + l.val < 1024 := by have := g.isLt; have := l.isLt; omega
  refine (Payload.pay4_apply _ _ _ _ (fun y => rowsFrom_finite _ hf0 _ y) (fun y => rowsFrom_finite _ hf1 _ y)
    p g l ⟨128 * g.val + l.val, hq⟩ rfl).trans ?_
  exact block_term (m ((c : Thread nD τ).loc main_arg0)) (m ((c : Thread nD τ).loc main_arg1)) (m ((c : Thread nD τ).loc main_arg2)) (2048 * (t.val / 8)) (1024 * (t.val % 8)) (by omega) (by omega) p ⟨128 * g.val + l.val, hq⟩

/-- THE ACCUMULATOR AFTER POINT `t`: the addends of the points of `t`'s block row up to `t`. -/
theorem acc_after (hf0 : ∀ z, Finite ((m ((c : Thread nD τ).loc main_arg0)) z)) (hf1 : ∀ z, Finite ((m ((c : Thread nD τ).loc main_arg1)) z))
    (t : Fin cfg0.N) (i : S2048x128.Idx) :
    (outsAt0 m c t.val t.isLt).2 i = ∑ s ∈ Finset.range (t.val % 8 + 1), addend m c (8 * (t.val / 8) + s) i := by
  have hN : cfg0.N = 32 := N_0
  rw [Value.soutsAt0_0_eq m c t]
  refine (Pipeline.accAt_add_apply (fun n h => Value.scAt0_0 m c n h (VS0_0.read (Elt Ideal) VS0_0.junk)) (Value.scAt0_0 m c)
    (fun _ => (0 : EReal)) (addend m c) (8 * (t.val / 8)) 7 ?_ ?_ (t.val % 8) (by omega) _ i).trans (zero_add _)
  · intro h i
    have h0 : (8 * (t.val / 8)) % 8 = 0 := by omega
    have h1 : ¬(8 * (t.val / 8)) % 8 = 7 := by omega
    unfold Value.scAt0_0
    rw [dif_pos h0, dif_neg h1, Cases.first_acc]
    exact (step m c hf0 hf1 ⟨8 * (t.val / 8), h⟩ _ i).trans (congrArg (· + _) (Payload.pay3_apply i))
  · intro n h acc i hb he
    have h0 : ¬n % 8 = 0 := by omega
    unfold Value.scAt0_0
    rw [dif_neg h0]
    by_cases h1 : n % 8 = 7
    · rw [dif_pos h1, Cases.last_acc]
      exact step m c hf0 hf1 ⟨n, h⟩ acc i
    · rw [dif_neg h1, Cases.middle_acc]
      exact step m c hf0 hf1 ⟨n, h⟩ acc i

/-- THE OUTPUT BLOCK AFTER A LAST POINT: each row is the sum of the accumulator's lanes. -/
theorem out_after (t : Fin cfg0.N) (h7 : t.val % 8 = 7) (p : Fin 2048) (u : Fin 1) :
    (outsAt0 m c t.val t.isLt).1 (ix2 p u) = ∑ l : Fin 128, (outsAt0 m c t.val t.isLt).2 (ix2 p l) := by
  have h0 : ¬t.val % 8 = 0 := by omega
  rw [outsAt0_C m c t h0 h7]
  dsimp only
  rw [Cases.last_out, Cases.last_acc]
  exact Payload.pay2_apply _ p u

/-- The result array the run ends with. -/
abbrev final : Buf (Elt Ideal) ((c : Thread nD τ).loc main_v5) :=
  result (m ((c : Thread nD τ).loc main_arg0)) (m ((c : Thread nD τ).loc main_arg1)) (m ((c : Thread nD τ).loc main_arg2))

/-- WHAT A LAST POINT WRITES BACK is its block of the specified result. -/
theorem flushed_eq (hf0 : ∀ z, Finite ((m ((c : Thread nD τ).loc main_arg0)) z)) (hf1 : ∀ z, Finite ((m ((c : Thread nD τ).loc main_arg1)) z))
    (t : Fin cfg0.N) (h7 : t.val % 8 = 7) :
    (dats m 0 c).flushed 4 t = ((cfg0.win 4).blk t).view.read (Elt Ideal) (final m c) := by
  have hN : t.val < 32 := lt_of_lt_of_eq t.isLt (show cfg0.N = 32 from N_0)
  obtain ⟨-, -, -, -, -, -, -, -, e8, e9⟩ := Blocks.idx_facts t
  rw [Value.flushed4 m c t]
  funext y
  show (outsAt0 m c t.val t.isLt).1 y = result (m ((c : Thread nD τ).loc main_arg0)) (m ((c : Thread nD τ).loc main_arg1)) (m ((c : Thread nD τ).loc main_arg2)) (((cfg0.win 4).blk t).view.emb y)
  obtain ⟨p, u, rfl⟩ : ∃ (p : Fin 2048) (u : Fin 1), y = ix2 p u := ⟨y 0, y 1, eq_ix2 y⟩
  rw [out_after m c t h7 p u, Finset.sum_congr rfl fun l _ => acc_after m c hf0 hf1 t (ix2 p l), h7]
  unfold result
  refine entry_total (m ((c : Thread nD τ).loc main_arg0)) (m ((c : Thread nD τ).loc main_arg1)) (m ((c : Thread nD τ).loc main_arg2)) (t.val / 8) p _ ?_
  show win0_4.index t (0 : Fin 2) * 2048 + 1 * p.val = 2048 * (t.val / 8) + p.val
  omega

/-- Every row of the result array lies in the output block of its block row's last point. -/
theorem cover (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 32 := N_0
  let t : Fin cfg0.N := ⟨8 * ((i 0).val / 2048) + 7, by omega⟩
  have ht : t.val = 8 * ((i 0).val / 2048) + 7 := rfl
  obtain ⟨-, -, -, -, -, -, -, -, e8, e9⟩ := Blocks.idx_facts t
  refine ⟨t, (flush0_4 t).mpr (by omega), ?_⟩
  show i ∈ ((View.whole main_v5).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1 ≤ (i 1).val ∧ (i 1).val < win0_4.index t (1 : Fin 2) * 1 + 1
    omega

/-- THE RESULT ARRAY after the run is the specified result of the argument arrays. -/
theorem final_eq (hf0 : ∀ z, Finite ((m ((c : Thread nD τ).loc main_arg0)) z)) (hf1 : ∀ z, Finite ((m ((c : Thread nD τ).loc main_arg1)) z)) :
    (dats m 0 c).arrAt 4 cfg0.N = final m c :=
  (dats m 0 c).arrAt_eq_of_cover 4 (final m c)
    (fun t hf => flushed_eq m c hf0 hf1 t ((flush0_4 t).mp hf)) cover

end Cert.KernelIdeal.KValue

end
-- ==== Proof.RefValue.lean ====
/-
  The reference computes the specified function.

  Read entry by entry, the reference's last product is the sum over the training rows `n` of the exponential of
  the scaled, clamped squared distance of query row `i` and training row `n`, times the weight of row `n`; the
  squared distance is assembled from the two squared norms (each a row sum from the zero word, broadcast along a
  row or, transposed, along a column) and twice the inner product of the two rows.  Every layout operation on the
  way reads its operand at coordinates that are, in the end, `(i, k)`, `(n, k)` and `(n, 0)`.
-/
import proofs.«144435_j51213190037873_2_alg».proof.Proof.Gen.ReferenceIdeal.Read
import proofs.«144435_j51213190037873_2_alg».proof.Proof.Spec

noncomputable section

namespace Cert.ReferenceIdeal.RefValue

open Cert.ReferenceIdeal Cert.ReferenceIdeal.Read Idealize.ShloMosaic Idealize.ShloMosaic.ValueIdx Cert.Rbf

/-- The reference's result, as a function of the three argument arrays, is the specified weighted sum. -/
theorem ref_eq (x0 x1 : (⟨S8192x256, .f32⟩ : BufTy).Contents (Elt Ideal)) (x2 : (⟨S8192x1, .f32⟩ : BufTy).Contents (Elt Ideal)) :
    val_main_v19 (F := Ideal) x0 x1 x2 = result x0 x1 x2 := by
  funext i
  rw [val_main_v19_apply]
  unfold result
  refine Finset.sum_congr rfl fun n _ => ?_
  have er : ridx_main_v19 i n = ix2 n (0 : Fin 1) := funext fun a => Fin.ext (by
    match a with
    | ⟨0, _⟩ => rfl
    | ⟨1, _⟩ => exact Nat.lt_one_iff.mp (idx2_lt1 i))
  have e1 : ∀ k : Fin 256, idx_main_v1 (idx_main_v2 (idx_main_v7 (lidx_main_v19 i n))) k = ix2 (i 0) k :=
    fun k => funext fun a => Fin.ext (by match a with | ⟨0, _⟩ => rfl | ⟨1, _⟩ => rfl)
  have e2 : ∀ k : Fin 256, idx_main_v4 (idx_main_v5 (idx_main_v6 (idx_main_v8 (lidx_main_v19 i n)))) k = ix2 n k :=
    fun k => funext fun a => Fin.ext (by match a with | ⟨0, _⟩ => rfl | ⟨1, _⟩ => rfl)
  have e3 : ∀ k : Fin 256, lidx_main_v10 (lidx_main_v19 i n) k = ix2 (i 0) k :=
    fun k => funext fun a => Fin.ext (by match a with | ⟨0, _⟩ => rfl | ⟨1, _⟩ => rfl)
  have e4 : ∀ k : Fin 256, ridx_main_v10 (lidx_main_v19 i n) k = ix2 n k :=
    fun k => funext fun a => Fin.ext (by match a with | ⟨0, _⟩ => rfl | ⟨1, _⟩ => rfl)
  rw [er, val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v10_apply, val_main_v9_apply, val_main_v8_apply, val_main_v6_apply,
    val_main_v5_apply, val_main_v4_apply, val_main_cst_0_apply, val_main_v7_apply, val_main_v2_apply,
    val_main_v1_apply, val_main_cst_apply]
  simp only [val_main_v0_apply, val_main_v3_apply, e1, e2, e3, e4]
  rfl

end Cert.ReferenceIdeal.RefValue

end
-- ==== Proof.FiniteArgs.lean ====
/-
  The precondition says the first two argument arrays hold real numbers only.

  The precondition is the conjunction of three tests "every entry's absolute value is below plus infinity".  An
  extended real whose absolute value `max x (−x)` is below `⊤` is neither `⊤` nor `⊥`.
-/
import proofs.«144435_j51213190037873_2_alg».proof.Pre_finite_inputs
import proofs.«144435_j51213190037873_2_alg».proof.Proof.BlockTerm
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Idealize.ShloMosaic Cert.Pre_finite_inputs Cert.Rbf

instance : Subsingleton S_.Idx := ⟨fun a b => funext fun d => d.elim0⟩

/-- The word of plus infinity is `⊤`. -/
theorem inf_word : Ideal.ofBits .f32 0x7F800000#32 = ⊤ := by simp [Ideal.ofBits, Ideal.ieee]

/-- An entry that passes the test is finite. -/
theorem finite_of_test (x : EReal) (h : Ideal.cmp .olt (max x (-x)) (Ideal.ofBits .f32 0x7F800000#32) = 1#1) :
    Finite x := by
  rw [inf_word] at h
  have hlt : max x (-x) < ⊤ := by
    by_contra hc
    simp [Ideal.cmp, hc] at h
  constructor
  · rintro rfl; simp at hlt
  · rintro rfl; simp at hlt

variable [Facts]

/-- Under the precondition, every entry of the query rows and of the training rows is finite. -/
theorem finite_rows (a0 a1 : FVec Ideal S8192x256 .f32) (a2 : FVec Ideal S8192x1 .f32)
    (h : fn (F := Ideal) a0 a1 a2 = fun _ => 1#1) : (∀ y, Finite (a0 y)) ∧ (∀ y, Finite (a1 y)) := by
  have h' := congrFun h ValueIdx.ix0
  dsimp only [fn] at h'
  have h1 := IntOp.andi_eq_one.mp h'
  have h2 := IntOp.andi_eq_one.mp h1.1
  exact ⟨fun y => finite_of_test _ (Host.reduce_andi_all _ _ _ _ _ h2.1 y),
    fun y => finite_of_test _ (Host.reduce_andi_all _ _ _ _ _ h2.2 y)⟩

end Cert.Pre_finite_inputs.Decode

end
-- ==== Proof.lean ====
/-
  A Gaussian-kernel weighted sum: the kernel against its reference, over the extended reals.

  Both programs take 8192 query rows and 8192 training rows of 256 numbers and one weight per training row, and
  return, per query row `r`,

      ∑ n, exp (−1/256 · max (‖q r‖² + ‖x n‖² − 2 ⟨q r, x n⟩) 0) · w n.

  The reference forms the whole `8192 × 8192` matrix of weights and multiplies it by the weights' column.  The
  kernel walks a `4 × 8` grid of `2048 × 1024` blocks; within a block it takes the inner products in three passes,
  on the rows and on the rows' differences with themselves, which vanish on finite rows — the one place the
  precondition is used —, folds the 1024 columns of the block into 128 lanes, accumulates the lanes over the 8
  blocks of a block row and sums them at the end.  Over the extended reals addition is commutative and associative,
  so the regrouped sum is the reference's sum.  The idealized kernel differs from the word-level one by two
  round trips through sixteen bits, removed; each is the identity at the ideal instance.
-/
import proofs.«144435_j51213190037873_2_alg».proof.Defs
import proofs.«144435_j51213190037873_2_alg».proof.Proof.Gen.Kernel
import proofs.«144435_j51213190037873_2_alg».proof.Proof.Gen.Kernel.Skeleton
import proofs.«144435_j51213190037873_2_alg».proof.Proof.Gen.Kernel.Launch
import proofs.«144435_j51213190037873_2_alg».proof.Proof.Gen.Kernel.Points
import proofs.«144435_j51213190037873_2_alg».proof.Proof.Gen.Kernel.Frame
import proofs.«144435_j51213190037873_2_alg».proof.Proof.Gen.KernelIdeal
import proofs.«144435_j51213190037873_2_alg».proof.Proof.Gen.KernelIdeal.Skeleton
import proofs.«144435_j51213190037873_2_alg».proof.Proof.Gen.KernelIdeal.Launch
import proofs.«144435_j51213190037873_2_alg».proof.Proof.Gen.KernelIdeal.Points
import proofs.«144435_j51213190037873_2_alg».proof.Proof.Gen.KernelIdeal.Frame
import proofs.«144435_j51213190037873_2_alg».proof.Proof.Gen.KernelIdeal.Value
import proofs.«144435_j51213190037873_2_alg».proof.Proof.Gen.ReferenceIdeal
import proofs.«144435_j51213190037873_2_alg».proof.Proof.Gen.ReferenceIdeal.Run
import proofs.«144435_j51213190037873_2_alg».proof.Proof.Gen.ReferenceIdeal.Read
import proofs.«144435_j51213190037873_2_alg».proof.Proof.Gen.Pre_finite_inputs
import proofs.«144435_j51213190037873_2_alg».proof.Proof.KernelValue
import proofs.«144435_j51213190037873_2_alg».proof.Proof.RefValue
import proofs.«144435_j51213190037873_2_alg».proof.Proof.FiniteArgs
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: rounding a 32-bit vector to sixteen bits and widening it back is the
    identity at the ideal instance, for the query block and for the training block. -/
theorem preserves : Cert.preserves_Kernel_KernelIdeal :=
  ⟨IdealRules.truncf_extf.statement _ .f32 .bf16, IdealRules.truncf_extf.statement _ .f32 .bf16⟩

/-- From memories that agree on the arguments, both programs end with the specified weighted sums. -/
theorem algebraic : Cert.algebraic_KernelIdeal_ReferenceIdeal := by
  intro m ρ m' ρ' hpre hagree
  have hfin := fun c => Cert.Pre_finite_inputs.Decode.finite_rows _ _ _ (hpre c)
  refine ⟨fun c => Cert.KernelIdeal.KValue.final m c, ?_, ?_⟩
  · exact (θ_run Cert.KernelIdeal.defs _ _).mono
      (fun r h c => ⟨(h c).1.trans (Cert.KernelIdeal.KValue.final_eq m c (hfin c).1 (hfin c).2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.ref_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
